-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S8x2048x1024 : Shape := ⟨3, ![8, 2048, 1024]⟩
abbrev S8x2048x2048 : Shape := ⟨3, ![8, 2048, 2048]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .f32⟩
  | .local _ .vmem, ⟨5, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S_, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Softmax.lean ====
/-
  The function both programs compute, stated once over plain index functions on the extended reals.

  For one batch entry, the score of query row r against key row c is the inner product of the two rows of the SAME
  array, divided by the sequence length 2048.  A row of scores becomes a row of weights by the usual three steps:
  subtract the row's maximum, exponentiate, divide by the row's sum of exponentials.  The maximum is the fold of
  `max` from −∞ over the row; no order is chosen, since `max` commutes and associates.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The divisor 2048.0 as both programs spell it. -/
abbrev seqLen : EReal := Ideal.ofBits .f32 0x45000000#32

/-- The accumulator a row maximum starts from: the f32 pattern of −∞. -/
abbrev negInf : EReal := Ideal.ofBits .f32 0xFF800000#32

/-- The scaled inner product of a query row and a key row of length 1024. -/
def dotScore (q k : Fin 1024 → EReal) : EReal :=
  Ideal.div (∑ d : Fin 1024, q d * k d) seqLen

/-- The maximum of a row of 2048 scores, from −∞. -/
def rowMax (s : Fin 2048 → EReal) : EReal :=
  (Finset.univ : Finset (Fin 2048)).fold max negInf s

/-- The unnormalised weight of entry c of a row: exp (s c − max s). -/
def rowExp (s : Fin 2048 → EReal) (c : Fin 2048) : EReal :=
  Ideal.exp (s c - rowMax s)

/-- The softmax of one row of scores at entry c. -/
def rowSoftmax (s : Fin 2048 → EReal) (c : Fin 2048) : EReal :=
  Ideal.div (rowExp s c) (∑ c' : Fin 2048, rowExp s c')

/-- The whole result: entry (b, r, c) is the softmax, over c, of the scaled inner products of row r of batch b
    with every row of batch b. -/
def scores (x : (⟨3, ![8, 2048, 1024]⟩ : Shape).Idx → EReal) : (⟨3, ![8, 2048, 2048]⟩ : Shape).Idx → EReal :=
  fun i => rowSoftmax (fun c' => dotScore (fun d => x (ix3 (i 0) (i 1) d)) (fun d => x (ix3 (i 0) c' d))) (i 2)

/-- The same at an index given by coordinates. -/
theorem scores_ix3 (x : (⟨3, ![8, 2048, 1024]⟩ : Shape).Idx → EReal) (b : Fin 8) (r c : Fin 2048) :
    scores x (ix3 b r c)
      = rowSoftmax (fun c' => dotScore (fun d => x (ix3 b r d)) (fun d => x (ix3 b c' d))) c := rfl

/-- −∞ is the least extended real, so joining it to a value changes nothing. -/
theorem max_negInf (y : EReal) : max negInf y = y := by
  show max (Ideal.ofBits .f32 0xFF800000#32) y = y
  simp [Ideal.ofBits, Ideal.ieee]

end Cert.Attn

end
-- ==== Proof.RefScores.lean ====
/-
  The reference program's result is the specification.

  The reference forms every scaled inner product of two rows of one batch entry, takes each row's maximum (once by a
  reduction from −∞ and once more against a splat of −∞, which changes nothing), subtracts it, exponentiates, sums
  each row from 0 and divides.  Read at an index (b, r, c), stage by stage, that is `Cert.Attn.scores`.
-/
import proofs.«172746_j2508260901348_2_alg».proof.Proof.Gen.ReferenceIdeal.Read
import proofs.«172746_j2508260901348_2_alg».proof.Proof.Softmax

noncomputable section

open scoped BigOperators

namespace Cert.Attn.Ref

open Cert.ReferenceIdeal Cert.ReferenceIdeal.Gen Cert.ReferenceIdeal.Read
open Idealize.ShloMosaic Idealize.ShloMosaic.ValueIdx

variable (x : (⟨S8x2048x1024, .f32⟩ : BufTy).Contents (Elt Ideal))

/-- Row r of batch b against every row of batch b: the row of scores the reference's row (b, r) is the softmax of. -/
abbrev srow (b : Fin 8) (r : Fin 2048) : Fin 2048 → EReal :=
  fun c' => dotScore (fun d => x (ix3 b r d)) (fun d => x (ix3 b c' d))

/-- The scaled product at (b, r, c) is the scaled inner product of rows r and c of batch b. -/
theorem score_apply (b : Fin 8) (r c : Fin 2048) :
    val_main_v2 (F := Ideal) x (ix3 b r c) = srow x b r c := by
  rw [val_main_v2_apply, val_main_v0_apply, val_main_v1_apply, val_main_cst_apply]
  have el : ∀ k : Fin 1024, lidx_main_v0 (ix3 b r c) k = ix3 b r k := fun k =>
    funext fun a => Fin.ext (by match a with | ⟨0, _⟩ => rfl | ⟨1, _⟩ => rfl | ⟨2, _⟩ => rfl)
  have er : ∀ k : Fin 1024, ridx_main_v0 (ix3 b r c) k = ix3 b c k := fun k =>
    funext fun a => Fin.ext (by match a with | ⟨0, _⟩ => rfl | ⟨1, _⟩ => rfl | ⟨2, _⟩ => rfl)
  simp only [el, er]
  rfl

/-- The reduction over the last axis of [8, 2048, 2048], with the witness the index insertion is defined from. -/
theorem red : S8x2048x2048.Reduces [2] S8x2048 := by decide

/-- Inserting coordinate k on the last axis of (b, r) gives (b, r, k). -/
theorem lift_ix (b : Fin 8) (r : Fin 2048) (k : Fin 2048) : red.lift (ix2 b r) k = ix3 b r k :=
  funext fun a => Fin.ext (by match a with | ⟨0, _⟩ => rfl | ⟨1, _⟩ => rfl | ⟨2, _⟩ => rfl)

/-- The reference's row maximum at (b, r) — reduced from −∞, then joined with −∞ — is the maximum of the row of scores. -/
theorem max_apply (b : Fin 8) (r : Fin 2048) :
    val_main_v5 (F := Ideal) x (ix2 b r) = rowMax (srow x b r) := by
  rw [val_main_v5_apply, val_main_v4_apply, val_main_cst_1_apply]
  show max negInf (val_main_v3 (F := Ideal) x (ix2 b r)) = _
  rw [max_negInf]
  unfold val_main_v3
  rw [Host.reduce_eq_fold_single (FloatOps.maximumf (F := Ideal) (φ := .f32)) _ _ reducesTo_S8x2048x2048_S8x2048_d2 red h_S_]
  show (Finset.univ : Finset (Fin 2048)).fold max negInf (val_main_v2 (F := Ideal) x ∘ red.lift (ix2 b r)) = _
  have e : (fun k : Fin 2048 => val_main_v2 (F := Ideal) x (red.lift (ix2 b r) k)) = srow x b r := by
    funext k
    rw [lift_ix, score_apply]
  exact congrArg (fun f : Fin 2048 → EReal => (Finset.univ : Finset (Fin 2048)).fold max negInf f) e

/-- The exponential at (b, r, c). -/
theorem exp_apply (b : Fin 8) (r c : Fin 2048) :
    val_main_v9 (F := Ideal) x (ix3 b r c) = rowExp (srow x b r) c := by
  rw [val_main_v9_apply, val_main_v8_apply, val_main_v7_apply, val_main_v6_apply]
  have e : idx_main_v6 (idx_main_v7 (ix3 b r c)) = ix2 b r :=
    funext fun a => Fin.ext (by match a with | ⟨0, _⟩ => rfl | ⟨1, _⟩ => rfl)
  rw [e, max_apply, score_apply]
  rfl

/-- The row's sum of exponentials at (b, r), from 0. -/
theorem sum_apply (b : Fin 8) (r : Fin 2048) :
    val_main_v10 (F := Ideal) x (ix2 b r) = ∑ c' : Fin 2048, rowExp (srow x b r) c' := by
  rw [val_main_v10_apply, val_main_cst_2_apply]
  have e : ∀ k : Fin 2048, idx_main_v10 (ix2 b r) k = ix3 b r k := fun k =>
    funext fun a => Fin.ext (by match a with | ⟨0, _⟩ => rfl | ⟨1, _⟩ => rfl | ⟨2, _⟩ => rfl)
  simp only [e, exp_apply]
  show Ideal.ofBits .f32 0x00000000#32 + _ = _
  rw [Ideal.ofBits_zero_f32, zero_add]

/-- The reference's result array is the specification of its argument. -/
theorem result_eq : val_main_v13 (F := Ideal) x = scores x := by
  funext i
  obtain ⟨b, r, c, rfl⟩ : ∃ (b : Fin 8) (r c : Fin 2048), i = ix3 b r c := ⟨i 0, i 1, i 2, eq_ix3 i⟩
  rw [val_main_v13_apply, val_main_v12_apply, val_main_v11_apply, exp_apply]
  have e : idx_main_v11 (idx_main_v12 (ix3 b r c)) = ix2 b r :=
    funext fun a => Fin.ext (by match a with | ⟨0, _⟩ => rfl | ⟨1, _⟩ => rfl)
  rw [e, sum_apply, scores_ix3]
  rfl

end Cert.Attn.Ref

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyScores.lean ====
/-
  What the kernel body stores, read at an index.

  At one grid point the body holds a block of 512 query rows and the block of all 2048 key rows of the same batch
  entry.  It multiplies the first by the transpose of the second into a zero accumulator, divides by 2048, and then
  treats each of the 512 rows of scores exactly as the specification does: row maximum from −∞, subtraction,
  exponential, row sum from 0, division.  So entry (p, c) of the stored block is the softmax, at c, of the scaled inner
  products of query row p with every key row.
-/
import proofs.«172746_j2508260901348_2_alg».proof.Proof.Gen.KernelIdeal.Skeleton
import proofs.«172746_j2508260901348_2_alg».proof.Proof.Softmax
import proofs.«172746_j2508260901348_2_alg».proof.Proof.LibMatmulNT
import proofs.«172746_j2508260901348_2_alg».proof.Proof.LibColumn
import Idealize.ShloMosaic.Lib.ValueLayout
import Idealize.ShloMosaic.PureOps.Ideal.Laws

noncomputable section

open scoped BigOperators

namespace Cert.Attn.Body

open Cert.KernelIdeal Cert.KernelIdeal.Gen
open Idealize.ShloMosaic Idealize.ShloMosaic.ValueIdx

/-! ## The block of scores -/

/-- The 512 × 2048 block of scaled inner products the body forms from its two loaded blocks. -/
def blockScores (x0 : Vec Ideal S1x512x1024 .f32) (x1 : Vec Ideal S1x2048x1024 .bf16) : FVec Ideal S512x2048 .f32 :=
  divf (matmul dot_S512x1024_S2048x1024_S512x2048_1_1_0_0_n_n none
      (truncf .bf16 (shapeCast S512x1024 x0 shapeCasts_S1x512x1024_S512x1024 : FVec Ideal S512x1024 .f32) bitsLt_bf16_f32)
      (shapeCast S2048x1024 x1 shapeCasts_S1x2048x1024_S2048x1024 : FVec Ideal S2048x1024 .bf16)
      (constant (F := Ideal) S512x2048 .f32 0x00000000#32))
    (broadcast S512x2048 (Scalar.ofBits (F := Ideal) .f32 0x45000000#32))

/-- Entry (p, c) of the block of scores: query row p against key row c. Narrowing the query rows to the shorter float
    format changes no value here. -/
theorem blockScores_apply (x0 : Vec Ideal S1x512x1024 .f32) (x1 : Vec Ideal S1x2048x1024 .bf16) (p : Fin 512) (c : Fin 2048) :
    blockScores x0 x1 (ix2 p c)
      = dotScore (fun d => x0 (ix3 (0 : Fin 1) p d)) (fun d => x1 (ix3 (0 : Fin 1) c d)) := by
  unfold blockScores dotScore
  refine congrArg (fun y => Ideal.div y seqLen) ?_
  refine (Cert.Gram.matmul_nt_zero_apply dot_S512x1024_S2048x1024_S512x2048_1_1_0_0_n_n_wf none _ _ p c).trans ?_
  refine Finset.sum_congr rfl fun d _ => ?_
  refine congrArg₂ (· * ·) ?_ ?_
  · exact shapeCast_1ab_ab_apply x0 shapeCasts_S1x512x1024_S512x1024 p d
  · exact shapeCast_1ab_ab_apply x1 shapeCasts_S1x2048x1024_S2048x1024 c d

/-! ## A row of scores to a row of weights -/

variable (s : FVec Ideal S512x2048 .f32)

/-- Inserting coordinate k on the last axis of the row index p gives (p, k). -/
theorem lift_ix (p : Fin 512) (k : Fin 2048) : reduces_S512x2048_S512.lift (ix1 p) k = ix2 p k :=
  funext fun a => Fin.ext (by match a with | ⟨0, _⟩ => rfl | ⟨1, _⟩ => rfl)

/-- The body's row maxima, as a column broadcast over the block. -/
def maxCol : FVec Ideal S512x2048 .f32 :=
  broadcastTo S512x2048
    (shapeCast S512x1 (multiReduction (F := Ideal) .maximumf [1] S512 s 0xFF800000#32 reduces_S512x2048_S512 (.inl rfl) rfl)
      shapeCasts_S512_S512x1) broadcasts_S512x1_S512x2048

theorem maxCol_apply (p : Fin 512) (c : Fin 2048) : maxCol s (ix2 p c) = rowMax (fun c' => s (ix2 p c')) := by
  unfold maxCol
  refine (Cert.LibColumn.broadcastTo_a1_ab_apply _ broadcasts_S512x1_S512x2048 p c).trans ?_
  refine (Cert.LibColumn.shapeCast_a_a1_apply _ shapeCasts_S512_S512x1 p (0 : Fin 1)).trans ?_
  refine (Ideal.multiReduction_maximumf_single s 0xFF800000#32 reduces_S512x2048_S512 (.inl rfl) rfl (ix1 p)).trans ?_
  have e : (fun k : Fin 2048 => s (reduces_S512x2048_S512.lift (ix1 p) k)) = fun c' => s (ix2 p c') := by
    funext k
    rw [lift_ix]
  exact congrArg (fun f : Fin 2048 → EReal => (Finset.univ : Finset (Fin 2048)).fold max negInf f) e

/-- The body's exponentials of the scores less their row maxima. -/
def expBlock : FVec Ideal S512x2048 .f32 := exp (subf s (maxCol s))

theorem expBlock_apply (p : Fin 512) (c : Fin 2048) : expBlock s (ix2 p c) = rowExp (fun c' => s (ix2 p c')) c := by
  show Ideal.exp (s (ix2 p c) - maxCol s (ix2 p c)) = _
  rw [maxCol_apply]
  rfl

/-- The body's row sums of a block, as a column broadcast over the block. -/
def sumCol (e : FVec Ideal S512x2048 .f32) : FVec Ideal S512x2048 .f32 :=
  broadcastTo S512x2048
    (shapeCast S512x1 (multiReduction (F := Ideal) .add [1] S512 e 0x00000000#32 reduces_S512x2048_S512 (.inl rfl) rfl)
      shapeCasts_S512_S512x1) broadcasts_S512x1_S512x2048

theorem sumCol_apply (e : FVec Ideal S512x2048 .f32) (p : Fin 512) (c : Fin 2048) :
    sumCol e (ix2 p c) = ∑ c' : Fin 2048, e (ix2 p c') := by
  unfold sumCol
  refine (Cert.LibColumn.broadcastTo_a1_ab_apply _ broadcasts_S512x1_S512x2048 p c).trans ?_
  refine (Cert.LibColumn.shapeCast_a_a1_apply _ shapeCasts_S512_S512x1 p (0 : Fin 1)).trans ?_
  refine (Ideal.multiReduction_add_single e 0x00000000#32 reduces_S512x2048_S512 (.inl rfl) rfl (ix1 p)).trans ?_
  show ∑ k : Fin 2048, e (reduces_S512x2048_S512.lift (ix1 p) k) = _
  exact Finset.sum_congr rfl fun k _ => by rw [lift_ix]

/-- The stored block from the block of scores. -/
def weights : FVec Ideal S1x512x2048 .f32 :=
  shapeCast S1x512x2048 (divf (expBlock s) (sumCol (expBlock s))) shapeCasts_S512x2048_S1x512x2048

theorem weights_apply (u : Fin 1) (p : Fin 512) (c : Fin 2048) :
    weights s (ix3 u p c) = rowSoftmax (fun c' => s (ix2 p c')) c := by
  unfold weights
  refine (shapeCast_ab_1ab_apply _ shapeCasts_S512x2048_S1x512x2048 u p c).trans ?_
  show Ideal.div (expBlock s (ix2 p c)) (sumCol (expBlock s) (ix2 p c)) = _
  rw [sumCol_apply, expBlock_apply]
  unfold rowSoftmax
  refine congrArg (Ideal.div _) ?_
  exact Finset.sum_congr rfl fun c' _ => expBlock_apply s p c'

/-! ## The payload -/

/-- The body's stored value is the weights of its block of scores: the printed operations in their order. -/
theorem pay_eq (x0 : Vec Ideal S1x512x1024 .f32) (x1 : Vec Ideal S1x2048x1024 .bf16) :
    k0_pay1 (F := Ideal) x0 x1 = weights (blockScores x0 x1) := rfl

/-- Entry (u, p, c) of the stored block. -/
theorem pay_apply (x0 : Vec Ideal S1x512x1024 .f32) (x1 : Vec Ideal S1x2048x1024 .bf16) (u : Fin 1) (p : Fin 512) (c : Fin 2048) :
    k0_pay1 (F := Ideal) x0 x1 (ix3 u p c)
      = rowSoftmax (fun c' => dotScore (fun d => x0 (ix3 (0 : Fin 1) p d)) (fun d => x1 (ix3 (0 : Fin 1) c' d))) c := by
  rw [pay_eq, weights_apply]
  refine congrArg (fun f : Fin 2048 → EReal => rowSoftmax f c) ?_
  funext c'
  exact blockScores_apply x0 x1 p c'

end Cert.Attn.Body

end
-- ==== Proof.KernelScores.lean ====
/-
  From the blocks the grid points write to the whole result array.

  Grid point (b, q) stages rows 512·q … 512·q + 511 of batch entry b as its query block, ALL rows of batch entry b —
  from the copy of the argument narrowed to the shorter float format before the call, which holds the same values —
  as its key block, and writes rows 512·q … 512·q + 511 of batch entry b of the result.  By the body's reading, what it
  writes is the specification restricted to that block; the 8 × 4 blocks tile the result, so the array ends holding the
  specification of the argument.
-/
import proofs.«172746_j2508260901348_2_alg».proof.Proof.Gen.KernelIdeal.Value
import proofs.«172746_j2508260901348_2_alg».proof.Proof.BodyScores
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.Attn.Kernel

open Cert.KernelIdeal Cert.KernelIdeal.Gen Cert.KernelIdeal.Value
open Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The array the key window stages — the argument narrowed before the call — holds the argument's values. -/
theorem keys_eq (c : Dev nD) :
    (V m c main_v0 : S8x2048x1024.Idx → EReal) = (m ((c : Thread nD τ).loc main_arg0) : S8x2048x1024.Idx → EReal) := by
  dsimp only [Gen.V, Gen.hostOps0]
  after_results
  rfl

/-- The three index maps over the grid, decided: the query and result windows move together, over batch entries and
    blocks of 512 rows; the key window follows the batch entry only. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 8 ∧ win0_2.index t (1 : Fin 3) < 4 ∧ win0_2.index t (2 : Fin 3) = 0 :=
  (by decide +kernel : ∀ t : Fin grid0.N, _)

/-- Every (batch entry, row block) pair is some grid point's. -/
theorem idx_onto : ∀ (b : Fin 8) (q : Fin 4), ∃ t : Fin cfg0.N, win0_2.index t = ![b.val, q.val, 0] :=
  (by decide +kernel : ∀ (b : Fin 8) (q : Fin 4), ∃ t : Fin grid0.N, win0_2.index t = ![b.val, q.val, 0])

/-- Row p, column d of the query block at point t is the argument at (b, 512·q + p, d). -/
theorem query_read (c : Dev nD) (t : Fin cfg0.N) (p : Fin 512) (d : Fin 1024) (k : S8x2048x1024.Idx)
    (h0 : (k 0).val = win0_2.index t (0 : Fin 3)) (h1 : (k 1).val = win0_2.index t (1 : Fin 3) * 512 + p.val)
    (h2 : (k 2).val = d.val) :
    (iblk m c 0 t : Vec Ideal S1x512x1024 .f32) (ix3 (0 : Fin 1) p d)
      = (m ((c : Thread nD τ).loc main_arg0) : S8x2048x1024.Idx → EReal) k := by
  obtain ⟨e0, e1, e2, -⟩ := idx_facts t
  refine Eq.trans ?_ (congrFun (V_main_arg0 m c) k)
  unfold iblk
  rw [View.read_apply]
  show V m c main_arg0 _ = V m c main_arg0 k
  refine congrArg (V m c main_arg0) ?_
  funext a
  apply Fin.ext
  match a with
  | ⟨0, _⟩ => show win0_0.index t (0 : Fin 3) * 1 + 1 * 0 = (k 0).val; omega
  | ⟨1, _⟩ => show win0_0.index t (1 : Fin 3) * 512 + 1 * p.val = (k 1).val; omega
  | ⟨2, _⟩ => show win0_0.index t (2 : Fin 3) * 1024 + 1 * d.val = (k 2).val; omega

/-- Row r, column d of the key block at point t is the argument at (b, r, d). -/
theorem key_read (c : Dev nD) (t : Fin cfg0.N) (r : Fin 2048) (d : Fin 1024) (k : S8x2048x1024.Idx)
    (h0 : (k 0).val = win0_2.index t (0 : Fin 3)) (h1 : (k 1).val = r.val) (h2 : (k 2).val = d.val) :
    (iblk m c 1 t : Vec Ideal S1x2048x1024 .bf16) (ix3 (0 : Fin 1) r d)
      = (m ((c : Thread nD τ).loc main_arg0) : S8x2048x1024.Idx → EReal) k := by
  obtain ⟨-, -, -, e3, e4, e5, -⟩ := idx_facts t
  refine Eq.trans ?_ (congrFun (keys_eq m c) k)
  unfold iblk
  rw [View.read_apply]
  show V m c main_v0 _ = V m c main_v0 k
  refine congrArg (V m c main_v0) ?_
  funext a
  apply Fin.ext
  match a with
  | ⟨0, _⟩ => show win0_1.index t (0 : Fin 3) * 1 + 1 * 0 = (k 0).val; omega
  | ⟨1, _⟩ => show win0_1.index t (1 : Fin 3) * 2048 + 1 * r.val = (k 1).val; omega
  | ⟨2, _⟩ => show win0_1.index t (2 : Fin 3) * 1024 + 1 * d.val = (k 2).val; omega

/-- WHAT POINT t WRITES BACK is block t of the specification of the argument. -/
theorem flushed_eq (c : Dev nD) (t : Fin cfg0.N) :
    (dats m 0 c).flushed 2 t
      = ((cfg0.win 2).blk t).view.read (Elt Ideal) (scores (m ((c : Thread nD τ).loc main_arg0))) := by
  rw [Value.flushed2]
  unfold out0_2
  rw [View.canon_unit_zero hz]
  simp only [View.ld_unit_zero (S := S1x512x1024) hz, View.ld_unit_zero (S := S1x2048x1024) hz]
  obtain ⟨-, -, -, -, -, -, l0, l1, z2⟩ := idx_facts t
  funext j
  obtain ⟨u, p, cc, rfl⟩ : ∃ (u : Fin 1) (p : Fin 512) (cc : Fin 2048), j = ix3 u p cc := ⟨j 0, j 1, j 2, eq_ix3 j⟩
  have hi : ((cfg0.win 2).blk t).view.emb (ix3 u p cc)
      = ix3 (⟨win0_2.index t (0 : Fin 3), l0⟩ : Fin 8) (⟨win0_2.index t (1 : Fin 3) * 512 + p.val, by omega⟩ : Fin 2048) cc := by
    funext a
    apply Fin.ext
    match a with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 2048 + 1 * cc.val = cc.val; omega
  show k0_pay1 (F := Ideal) (iblk m c 0 t) (iblk m c 1 t) (ix3 u p cc)
    = scores (m ((c : Thread nD τ).loc main_arg0)) (((cfg0.win 2).blk t).view.emb (ix3 u p cc))
  refine (Body.pay_apply (iblk m c 0 t) (iblk m c 1 t) u p cc).trans ?_
  refine Eq.trans ?_ (congrArg (scores (m ((c : Thread nD τ).loc main_arg0))) hi).symm
  refine Eq.trans ?_ (scores_ix3 _ _ _ _).symm
  refine congrArg (fun f : Fin 2048 → EReal => rowSoftmax f cc) (funext fun c' => ?_)
  refine congrArg₂ dotScore (funext fun d => ?_) (funext fun d => ?_)
  · exact query_read m c t p d _ rfl rfl rfl
  · exact key_read m c t c' d _ rfl rfl rfl

/-- An index of the result is in point t's block iff each coordinate is in the block's range on its axis. -/
theorem mem_blk (t : Fin cfg0.N) (i : S8x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v1).slice (win0_2.rect t)).set ↔ _
  rw [View.set_slice_whole, Rect.mem_set_unit]
  exact Iff.rfl

/-- Every index of the result lies in the block of the point of its batch entry and of its row's block of 512. -/
theorem cover (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE RESULT ARRAY after the run is the specification of the argument. -/
theorem final (c : Dev nD) : (dats m 0 c).arrAt 2 cfg0.N = scores (m ((c : Thread nD τ).loc main_arg0)) :=
  (dats m 0 c).arrAt_eq_of_cover 2 (scores (m ((c : Thread nD τ).loc main_arg0))) (fun t _ => flushed_eq m c t) cover

/-- The kernel's run, read: the result array at the specification of the argument, the argument unchanged. -/
theorem run : θ_run defs (onTc (τ := τ) (main (F := Ideal))) ⟨m, fun _ => 0, ρ⟩ fun r => ∀ c : Dev nD,
      r.2.mem ((c : Thread nD τ).loc main_v1) = scores (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Attn.Kernel

end
-- ==== Proof.lean ====
/-
  Scaled dot-product attention weights of an array against itself: for each of 8 batch entries, the 2048 × 2048 matrix
  X·Xᵀ / 2048 of a 2048 × 1024 array X, each row passed through softmax.  Both programs also return the argument.

  The kernel computes one block of 512 rows of one batch entry per grid point, from the query rows narrowed to the
  shorter float format in the body and a copy of the whole argument narrowed before the call; the reference forms the
  whole product at once, takes the row maxima by a reduction (and once more against −∞), and goes on to a second product
  it never returns.  On the extended reals narrowing changes no value, a product into a zero accumulator is the plain
  sum of products, a maximum folded from −∞ does not depend on the order, and joining −∞ to a value changes nothing: so
  both result arrays are ONE function of the argument, `Cert.Attn.scores` (Proof/Softmax.lean), with no algebra between
  the two sides and no use of the inputs' finiteness.

  Proof/RefScores.lean reads the reference's result as that function, Proof/BodyScores.lean the kernel body's stored
  block, Proof/KernelScores.lean assembles the blocks into the array; below, the three frames, the empty list of
  rewrites, and the two runs set side by side.
-/
import proofs.«172746_j2508260901348_2_alg».proof.Defs
import proofs.«172746_j2508260901348_2_alg».proof.Proof.Gen.Kernel
import proofs.«172746_j2508260901348_2_alg».proof.Proof.Gen.Kernel.Frame
import proofs.«172746_j2508260901348_2_alg».proof.Proof.Gen.KernelIdeal
import proofs.«172746_j2508260901348_2_alg».proof.Proof.Gen.KernelIdeal.Frame
import proofs.«172746_j2508260901348_2_alg».proof.Proof.Gen.KernelIdeal.Value
import proofs.«172746_j2508260901348_2_alg».proof.Proof.Gen.ReferenceIdeal
import proofs.«172746_j2508260901348_2_alg».proof.Proof.Gen.ReferenceIdeal.Run
import proofs.«172746_j2508260901348_2_alg».proof.Proof.Gen.ReferenceIdeal.Read
import proofs.«172746_j2508260901348_2_alg».proof.Proof.Gen.Pre_finite_inputs
import proofs.«172746_j2508260901348_2_alg».proof.Proof.RefScores
import proofs.«172746_j2508260901348_2_alg».proof.Proof.KernelScores
import Idealize.ShloMosaic.Adequacy
import Idealize.ShloMosaic.Init

noncomputable section

namespace Cert.Proof

open Idealize.ShloMosaic Idealize.ShloMosaic.TcCoe Idealize.SL.Sem

/-- The kernel as printed runs and leaves its argument as it found it. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations; its run keeps the argument. -/
theorem frame_ri : Cert.frame_ReferenceIdeal := fun m ρ _ =>
  (θ_run Cert.ReferenceIdeal.defs _ _).mono (fun _ h c => (h c).1) (Cert.ReferenceIdeal.Value.run (F := Ideal) m ρ)

/-- Nothing of the kernel was rewritten for the reading on the extended reals. -/
theorem preserves : Cert.preserves_Kernel_KernelIdeal := trivial

/-- From memories agreeing on the argument both programs end with the argument and with the softmax of its scaled
    Gram matrices: the kernel's result array by its blocks, the reference's by its stages. -/
theorem algebraic : Cert.algebraic_KernelIdeal_ReferenceIdeal := by
  intro m ρ m' ρ' _ hagree
  refine ⟨fun c => m ((c : Thread Cert.KernelIdeal.nD Cert.KernelIdeal.τ).loc Cert.KernelIdeal.main_arg0),
    fun c => Cert.Attn.scores (m ((c : Thread Cert.KernelIdeal.nD Cert.KernelIdeal.τ).loc Cert.KernelIdeal.main_arg0)), ?_, ?_⟩
  · exact (θ_run Cert.KernelIdeal.defs _ _).mono (fun _ h c => ⟨(h c).2, (h c).1, (h c).2⟩) (Cert.Attn.Kernel.run m ρ)
  · refine (θ_run Cert.ReferenceIdeal.defs _ _).mono (fun _ h c => ⟨(h c).1.trans (hagree c), (h c).2.1.trans ?_, (h c).1⟩)
      (Cert.ReferenceIdeal.Value.run (F := Ideal) m' ρ')
    rw [Cert.ReferenceIdeal.Read.val_main_v13_eq, Cert.Attn.Ref.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
